-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg10 : FVec F S128x8 .f32) (main_arg11 : FVec F S8 .f32) (main_v33 : IVec S_ 1) : IVec S_ 1 :=
  let main_v34 : FVec F S128x8 .f32 := Host.absf main_arg10
  let main_cst_12 : FVec F S_ .f32 := constant S_ .f32 0x7F800000#32
  let main_v35 : FVec F S128x8 .f32 := broadcastInDim S128x8 ![] bcast_S_S128x8 main_cst_12
  let main_v36 : IVec S128x8 1 := cmpf .olt main_v34 main_v35
  let main_c_13 : IVec S_ 1 := constantI S_ 1 1#1
  let main_v37 : IVec S_ 1 := (fun x v => Host.reduce IntOp.andi x v reducesTo_S128x8_S_d0_1 h_S_) main_v36 main_c_13
  let main_v38 : IVec S_ 1 := andi main_v33 main_v37
  let main_v39 : FVec F S8 .f32 := Host.absf main_arg11
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x8 .f32) (main_arg11 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S800000 32) (main_arg2 : IVec S800000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x8 .f32) (main_arg11 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S800000 : Shape := ⟨1, ![800000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S64x128 : Shape := ⟨2, ![64, 128]⟩
abbrev S100000x1 : Shape := ⟨2, ![100000, 1]⟩
abbrev S64x1 : Shape := ⟨2, ![64, 1]⟩
abbrev S64x8 : Shape := ⟨2, ![64, 8]⟩
abbrev S1x8 : Shape := ⟨2, ![1, 8]⟩

abbrev nBuf : Space → Nat
  | .hbm => 76
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S100000x128, .f32⟩
  | .hbm, ⟨38, _⟩ => ⟨S800000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S100000x128, .f32⟩
  | .hbm, ⟨53, _⟩ => ⟨S800000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .f32⟩
  | .hbm, ⟨58, _⟩ => ⟨S64x128, .f32⟩
  | .hbm, ⟨59, _⟩ => ⟨S100000x1, .i32⟩
  | .hbm, ⟨60, _⟩ => ⟨S64x128, .f32⟩
  | .hbm, ⟨61, _⟩ => ⟨S_, .f32⟩
  | .hbm, ⟨62, _⟩ => ⟨S100000x1, .f32⟩
  | .hbm, ⟨63, _⟩ => ⟨S_, .f32⟩
  | .hbm, ⟨64, _⟩ => ⟨S64x1, .f32⟩
  | .hbm, ⟨65, _⟩ => ⟨S100000x1, .i32⟩
  | .hbm, ⟨66, _⟩ => ⟨S64x1, .f32⟩
  | .hbm, ⟨67, _⟩ => ⟨S_, .f32⟩
  | .hbm, ⟨68, _⟩ => ⟨S64x1, .f32⟩
  | .hbm, ⟨69, _⟩ => ⟨S64x1, .f32⟩
  | .hbm, ⟨70, _⟩ => ⟨S64x128, .f32⟩
  | .hbm, ⟨71, _⟩ => ⟨S64x128, .f32⟩
  | .hbm, ⟨72, _⟩ => ⟨S64x8, .f32⟩
  | .hbm, ⟨73, _⟩ => ⟨S1x8, .f32⟩
  | .hbm, ⟨74, _⟩ => ⟨S64x8, .f32⟩
  | .hbm, ⟨75, _⟩ => ⟨S64x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S800000 : Shape := ⟨1, ![800000]⟩
abbrev S100000 : Shape := ⟨1, ![100000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S100000x1 : Shape := ⟨2, ![100000, 1]⟩
abbrev S64x1 : Shape := ⟨2, ![64, 1]⟩
abbrev S64x8 : Shape := ⟨2, ![64, 8]⟩
abbrev S1x8 : Shape := ⟨2, ![1, 8]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S8, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S100000x128, .f32⟩
  | .hbm, ⟨65, _⟩ => ⟨S800000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S64x128, .f32⟩
  | .hbm, ⟨77, _⟩ => ⟨S100000x1, .i32⟩
  | .hbm, ⟨78, _⟩ => ⟨S64x128, .f32⟩
  | .hbm, ⟨79, _⟩ => ⟨S_, .f32⟩
  | .hbm, ⟨80, _⟩ => ⟨S100000x1, .f32⟩
  | .hbm, ⟨81, _⟩ => ⟨S_, .f32⟩
  | .hbm, ⟨82, _⟩ => ⟨S64x1, .f32⟩
  | .hbm, ⟨83, _⟩ => ⟨S100000x1, .i32⟩
  | .hbm, ⟨84, _⟩ => ⟨S64x1, .f32⟩
  | .hbm, ⟨85, _⟩ => ⟨S_, .f32⟩
  | .hbm, ⟨86, _⟩ => ⟨S64x1, .f32⟩
  | .hbm, ⟨87, _⟩ => ⟨S64x1, .f32⟩
  | .hbm, ⟨88, _⟩ => ⟨S64x128, .f32⟩
  | .hbm, ⟨89, _⟩ => ⟨S64x128, .f32⟩
  | .hbm, ⟨90, _⟩ => ⟨S64x8, .f32⟩
  | .hbm, ⟨91, _⟩ => ⟨S1x8, .f32⟩
  | .hbm, ⟨92, _⟩ => ⟨S64x8, .f32⟩
  | .hbm, ⟨93, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x8_S64x8_1_0_0_1_n_n_wf : DotDims.WF S64x128 S128x8 S64x8 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.NamedRun.lean ====
/-
  The kernel program's run with its result buffer named.

  The program is three launches among four stretches of host operations.  Its run over these seven segments ends,
  on every core, with every buffer that outlives the launches at the contents the last boundary of the fold through
  @main gives it (`W7`): the arguments at their launch contents, and the result buffer at `W7` of itself — the value
  the later modules read back through the fold, stretch by stretch and launch by launch.
-/
import proofs.«149989_j39565238731025_1_alg».proof.Proof.FrameKI

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the seven segments, the last thread state read against
    the final memory, the result buffer kept beside the arguments. -/
theorem run_named : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Named

end
-- ==== Proof.LayerEntry.lean ====
/-
  One entry of a graph-isomorphism layer, over the extended reals.

  A layer maps node features `x : [n, 128]` and the neighbourhood sums `a : [n, 128]` to
  `relu ((x + a) · W + b)`: at row `p` and column `q`,
      max (Σ_k (x[p,k] + a[p,k]) · W[k,q] + b[q]) 0.
  The row `p` of the result depends on row `p` of `x` and of `a` only, so a block of consecutive rows of the
  result is the same formula over the same block of rows of `x` and `a`.  Both programs compute this entry:
  one as a matrix product of a block of rows into a zero accumulator, the other as one contraction of the
  whole array.  The zero is kept as the word `0x00000000` read as a float, the same on both sides.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- The entry at row `p`, column `q` of `relu ((x + a) · w + b)`. -/
def entry {n : Nat} (x a : FVec Ideal ⟨2, ![n, 128]⟩ .f32) (w : FVec Ideal ⟨2, ![128, 128]⟩ .f32)
    (b : FVec Ideal ⟨1, ![128]⟩ .f32) (p : Fin n) (q : Fin 128) : EReal :=
  max ((∑ k : Fin 128, (x (ix2 p k) + a (ix2 p k)) * w (ix2 k q)) + b (ix1 q)) (Ideal.ofBits .f32 0x00000000#32)

/-- The whole layer as one function of the arrays, index by index. -/
def layerFn {n : Nat} (x a : FVec Ideal ⟨2, ![n, 128]⟩ .f32) (w : FVec Ideal ⟨2, ![128, 128]⟩ .f32)
    (b : FVec Ideal ⟨1, ![128]⟩ .f32) : FVec Ideal ⟨2, ![n, 128]⟩ .f32 :=
  fun i => entry x a w b (i 0) (i 1)

/-- The entry reads `x` and `a` on row `p` only: two pairs of arrays of different heights that agree on the
    rows `p` and `p'` give the same entry. -/
theorem entry_congr {n n' : Nat} (x a : FVec Ideal ⟨2, ![n, 128]⟩ .f32) (x' a' : FVec Ideal ⟨2, ![n', 128]⟩ .f32)
    (w w' : FVec Ideal ⟨2, ![128, 128]⟩ .f32) (b : FVec Ideal ⟨1, ![128]⟩ .f32) (p : Fin n) (p' : Fin n') (q : Fin 128)
    (hx : ∀ k : Fin 128, x (ix2 p k) = x' (ix2 p' k)) (ha : ∀ k : Fin 128, a (ix2 p k) = a' (ix2 p' k))
    (hw : ∀ k : Fin 128, w (ix2 k q) = w' (ix2 k q)) :
    entry x a w b p q = entry x' a' w' b p' q := by
  unfold entry
  refine congrArg (fun s => max (s + b (ix1 q)) (Ideal.ofBits .f32 0x00000000#32)) ?_
  exact Finset.sum_congr rfl fun k _ => by rw [hx k, ha k, hw k]

/-- So an entry computed from blocks that are rows of whole arrays is the whole-array layer at the index those rows
    and that column sit at. -/
theorem entry_eq_layerFn {n n' : Nat} (x a : FVec Ideal ⟨2, ![n, 128]⟩ .f32) (x' a' : FVec Ideal ⟨2, ![n', 128]⟩ .f32)
    (w w' : FVec Ideal ⟨2, ![128, 128]⟩ .f32) (b : FVec Ideal ⟨1, ![128]⟩ .f32) (p : Fin n) (q : Fin 128)
    (i : (⟨2, ![n', 128]⟩ : Shape).Idx) (h1 : (i 1).val = q.val)
    (hx : ∀ k : Fin 128, x (ix2 p k) = x' (ix2 (i 0) k)) (ha : ∀ k : Fin 128, a (ix2 p k) = a' (ix2 (i 0) k))
    (hw : ∀ k : Fin 128, w (ix2 k q) = w' (ix2 k q)) :
    entry x a w b p q = layerFn x' a' w' b i := by
  obtain ⟨r, s, rfl⟩ : ∃ (r : Fin n') (s : Fin 128), i = ix2 r s := ⟨i 0, i 1, eq_ix2 i⟩
  obtain rfl : s = q := Fin.ext h1
  exact entry_congr x a x' a' w w' b p r s hx ha hw

end Cert.Gin

end
-- ==== Proof.BlockEntry.lean ====
/-
  What one grid point of a layer's kernel stores, read at an entry.

  At a grid point the kernel holds a block of 5000 consecutive rows of the node features `x` and of the
  neighbourhood sums `a`, the whole weight matrix `w` and the bias as one row `r : [1, 128]`.  It stores
  `max ((x + a) · w + r) 0`: the sum `x + a` and the weights are narrowed to bfloat16 on the way into the matrix
  product, which over the extended reals changes nothing, and the product is accumulated into a zero block.
  So the stored block at (p, q) is `Cert.Gin.entry` of the blocks at (p, q): the product into the zero block is
  the plain sum over the contracted axis, re-indexed from the contraction shape's one axis to `Fin 128`.
  The three launches store the same term; in the first the cast of `a`'s block to its own shape is written out
  once, in the other two the casts of both blocks.
-/
import proofs.«149989_j39565238731025_1_alg».proof.Proof.Gen.KernelIdeal.Skeleton
import proofs.«149989_j39565238731025_1_alg».proof.Proof.LayerEntry
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.Gin

/-- The block product's dimension numbers: rows of the left operand against columns of the right. -/
abbrev DK : DotDims S5000x128 S128x128 S5000x128 := dot_S5000x128_S128x128_S5000x128_1_0_0_1_n_n

theorem lhs_0 (i : S5000x128.Idx) (r : DK.contr.Idx) : (DK.lhsIdx i r 0).val = (i 0).val := by
  unfold DotDims.lhsIdx
  rw [dif_neg (show ¬(0 : Fin S5000x128.rank) ∈ DK.lhsBatch by decide), dif_pos (show (0 : Fin S5000x128.rank) ∈ DK.lhsNonContracting by decide)]
  rfl
theorem lhs_1 (i : S5000x128.Idx) (r : DK.contr.Idx) : (DK.lhsIdx i r 1).val = (r ⟨0, by decide⟩).val :=
  DK.lhsIdx_val_of_single rfl i r
theorem rhs_0 (i : S5000x128.Idx) (r : DK.contr.Idx) : (DK.rhsIdx i r 0).val = (r ⟨0, by decide⟩).val :=
  DK.rhsIdx_val_of_single rfl i r
theorem rhs_1 (i : S5000x128.Idx) (r : DK.contr.Idx) : (DK.rhsIdx i r 1).val = (i 1).val := by
  unfold DotDims.rhsIdx
  rw [dif_neg (show ¬(1 : Fin S128x128.rank) ∈ DK.rhsBatch by decide), dif_pos (show (1 : Fin S128x128.rank) ∈ DK.rhsNonContracting by decide)]
  rfl

/-- The left operand of the product at output (p, q) and contraction coordinate k is read at (p, k). -/
theorem lhs_idx (p : Fin 5000) (q k : Fin 128) :
    DK.lhsIdx (ix2 p q) ((contrEquiv1 DK 128 rfl rfl).symm k) = ix2 p k :=
  funext fun a => Fin.ext (by
    match a with
    | ⟨0, _⟩ => exact lhs_0 _ _
    | ⟨1, _⟩ => exact (lhs_1 _ _).trans (contrEquiv1_symm_val DK 128 rfl rfl k))

/-- The right operand at output (p, q) and contraction coordinate k is read at (k, q). -/
theorem rhs_idx (p : Fin 5000) (q k : Fin 128) :
    DK.rhsIdx (ix2 p q) ((contrEquiv1 DK 128 rfl rfl).symm k) = ix2 k q :=
  funext fun a => Fin.ext (by
    match a with
    | ⟨0, _⟩ => exact (rhs_0 _ _).trans (contrEquiv1_symm_val DK 128 rfl rfl k)
    | ⟨1, _⟩ => exact rhs_1 _ _)

/-- The stored term at (p, q), over blocks given as variables: the layer's entry of the blocks, the bias row
    `r` read as the bias vector `b`. -/
theorem stored_apply (x a : FVec Ideal S5000x128 .f32) (w : FVec Ideal S128x128 .f32) (r : FVec Ideal S1x128 .f32)
    (b : FVec Ideal ⟨1, ![128]⟩ .f32) (hr : ∀ q : Fin 128, r (ix2 (0 : Fin 1) q) = b (ix1 q)) (p : Fin 5000) (q : Fin 128) :
    (maximumf (addf (matmul (F := Ideal) DK none (truncf .bf16 (addf x a) Facts₀.bitsLt_bf16_f32) (truncf .bf16 w Facts₀.bitsLt_bf16_f32)
          (constant (F := Ideal) S5000x128 .f32 0x00000000#32))
        (broadcastTo S5000x128 r Facts₀.broadcasts_S1x128_S5000x128))
      (broadcast S5000x128 (Scalar.ofBits (F := Ideal) .f32 0x00000000#32)) : FVec Ideal S5000x128 .f32) (ix2 p q)
      = entry x a w b p q := by
  rw [maximumf_apply, addf_apply, broadcast_apply, broadcastTo_1b_ab_apply r _ p q, hr q]
  simp only [matmul]
  rw [Ideal.matmul_constant_zero_apply, ← Equiv.sum_comp (contrEquiv1 DK 128 rfl rfl).symm]
  unfold entry
  refine congrArg₂ max (congrArg (· + b (ix1 q)) (Finset.sum_congr rfl fun k _ => ?_)) rfl
  rw [lhs_idx, rhs_idx]
  rfl

/-- Launch 0's stored block at (p, q). -/
theorem pay0_apply (x0 x1 : Vec Ideal S5000x128 .f32) (x2 : Vec Ideal S128x128 .f32) (x3 : Vec Ideal S1x128 .f32)
    (b : FVec Ideal ⟨1, ![128]⟩ .f32) (hr : ∀ q : Fin 128, x3 (ix2 (0 : Fin 1) q) = b (ix1 q)) (p : Fin 5000) (q : Fin 128) :
    k0_pay1 (F := Ideal) x0 x1 x2 x3 (ix2 p q) = entry x0 x1 x2 b p q := by
  unfold k0_pay1
  simp only [shapeCast_self]
  exact stored_apply x0 x1 x2 x3 b hr p q

/-- Launch 1's stored block at (p, q). -/
theorem pay1_apply (x0 x1 : Vec Ideal S5000x128 .f32) (x2 : Vec Ideal S128x128 .f32) (x3 : Vec Ideal S1x128 .f32)
    (b : FVec Ideal ⟨1, ![128]⟩ .f32) (hr : ∀ q : Fin 128, x3 (ix2 (0 : Fin 1) q) = b (ix1 q)) (p : Fin 5000) (q : Fin 128) :
    k1_pay1 (F := Ideal) x0 x1 x2 x3 (ix2 p q) = entry x0 x1 x2 b p q := by
  unfold k1_pay1
  simp only [shapeCast_self]
  exact stored_apply x0 x1 x2 x3 b hr p q

/-- Launch 2's stored block at (p, q). -/
theorem pay2_apply (x0 x1 : Vec Ideal S5000x128 .f32) (x2 : Vec Ideal S128x128 .f32) (x3 : Vec Ideal S1x128 .f32)
    (b : FVec Ideal ⟨1, ![128]⟩ .f32) (hr : ∀ q : Fin 128, x3 (ix2 (0 : Fin 1) q) = b (ix1 q)) (p : Fin 5000) (q : Fin 128) :
    k2_pay1 (F := Ideal) x0 x1 x2 x3 (ix2 p q) = entry x0 x1 x2 b p q := by
  unfold k2_pay1
  simp only [shapeCast_self]
  exact stored_apply x0 x1 x2 x3 b hr p q

end Cert.KernelIdeal.Block

end
-- ==== Proof.Region0.lean ====
/-
  Launch 0 of the layer kernel: the array it leaves is the layer of the arrays it finds.

  The grid has 20 points; point t holds rows 5000·t … 5000·t + 4999 of the node features and of the neighbourhood
  sums, the whole weight matrix and the bias row, and writes back rows 5000·t … 5000·t + 4999 of the result.  An entry
  of the layer depends on its own row of the two node arrays only, so what point t writes back is block t of ONE
  function of the arrays as the launch finds them — `Cert.Gin.layerFn` —, and the twenty blocks tile the result:
  the result array ends holding that function.  Stated at any contents `V` of the buffers at the launch's entry, with
  the bias row `[1, 128]` read as a bias vector `b`.
-/
import proofs.«149989_j39565238731025_1_alg».proof.Proof.FrameKI
import proofs.«149989_j39565238731025_1_alg».proof.Proof.BlockEntry
import Idealize.ShloMosaic.Lib.Pipeline.Value
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two node windows and the result window are at block row t,
    the weights and the bias at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node-feature block at point t, row p: row 5000·t + p of the array. -/
theorem blk0_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * p.val = r.val; rw [e0, hr]; omega
  | ⟨1, _⟩ => show win0_0.index t 1 * 128 + 1 * k.val = k.val; rw [e1]; omega

/-- The neighbourhood-sum block at point t, row p: row 5000·t + p of the array. -/
theorem blk1_apply (c : Dev nD) (t : Fin cfg0.N) (p : Fin 5000) (k : Fin 128) (r : Fin 100000) (hr : r.val = t.val * 5000 + p.val) :
    (iblk0 V c 1 t : Vec Ideal S5000x128 .f32) (ix2 p k) = (V c main_v9 : S100000x128.Idx → EReal) (ix2 r k) := by
  obtain ⟨-, -, e0, e1, -⟩ := idx_facts t
  unfold iblk0
  rw [View.read_apply]
  show V c main_v9 _ = V c main_v9 _
  refine congrArg (V c main_v9) (funext fun a => Fin.ext ?_)
  match a with
  | ⟨0, _⟩ => show win0_1.index t 0 * 5000 + 1 * p.val = r.val; rw [e0, hr]; omega
  | ⟨1, _⟩ => show win0_1.index t 1 * 128 + 1 * k.val = k.val; rw [e1]; omega

/-- The weight block at every point is the whole weight matrix. -/
theorem blk2_apply (c : Dev nD) (t : Fin cfg0.N) (k q : Fin 128) :
    (iblk0 V c 2 t : Vec Ideal S128x128 .f32) (ix2 k q) = (V c main_arg4 : S128x128.Idx → EReal) (ix2 k q) := by
  obtain ⟨-, -, -, -, e0, e1, -⟩ := idx_facts t
  unfold iblk0
  rw [View.read_apply]
  show V c main_arg4 _ = V c main_arg4 _
  refine congrArg (V c main_arg4) (funext fun a => Fin.ext ?_)
  match a with
  | ⟨0, _⟩ => show win0_2.index t 0 * 128 + 1 * k.val = k.val; rw [e0]; omega
  | ⟨1, _⟩ => show win0_2.index t 1 * 128 + 1 * q.val = q.val; rw [e1]; omega

/-- The bias block at every point is the whole bias row. -/
theorem blk3_apply (c : Dev nD) (t : Fin cfg0.N) (q : Fin 128) :
    (iblk0 V c 3 t : Vec Ideal S1x128 .f32) (ix2 (0 : Fin 1) q) = (V c main_v10 : S1x128.Idx → EReal) (ix2 (0 : Fin 1) q) := by
  obtain ⟨-, -, -, -, -, -, e0, e1, -⟩ := idx_facts t
  unfold iblk0
  rw [View.read_apply]
  show V c main_v10 _ = V c main_v10 _
  refine congrArg (V c main_v10) (funext fun a => Fin.ext ?_)
  match a with
  | ⟨0, _⟩ => show win0_3.index t 0 * 1 + 1 * 0 = 0; rw [e0]
  | ⟨1, _⟩ => show win0_3.index t 1 * 128 + 1 * q.val = q.val; rw [e1]; omega

/-- What point t writes back is block t of the layer of the arrays the launch finds. -/
theorem flushed_eq (c : Dev nD) (b : FVec Ideal ⟨1, ![128]⟩ .f32)
    (hb : ∀ q : Fin 128, (V c main_v10 : S1x128.Idx → EReal) (ix2 (0 : Fin 1) q) = b (ix1 q)) (t : Fin cfg0.N) :
    (dat0 V c).flushed 4 t = ((cfg0.win 4).blk t).view.read (Elt Ideal)
      (layerFn (V c main_arg0 : S100000x128.Idx → EReal) (V c main_v9) (V c main_arg4) b) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx_facts t
  have hN : cfg0.N = 20 := N_0
  refine funext fun (j : S5000x128.Idx) => ?_
  obtain ⟨p, q, rfl⟩ : ∃ (p : Fin 5000) (q : Fin 128), j = ix2 p q := ⟨j 0, j 1, eq_ix2 j⟩
  refine (Block.pay0_apply (iblk0 V c 0 t) (iblk0 V c 1 t) (iblk0 V c 2 t) (iblk0 V c 3 t) b
    (fun q' => (blk3_apply V c t q').trans (hb q')) p q).trans ?_
  rw [View.read_apply]
  refine entry_eq_layerFn (iblk0 V c 0 t) (iblk0 V c 1 t) (V c main_arg0) (V c main_v9) (iblk0 V c 2 t) (V c main_arg4) b p q _ ?_ ?_ ?_ ?_
  · show win0_4.index t 1 * 128 + 1 * q.val = q.val
    rw [e9]; omega
  · exact fun k => blk0_apply V c t p k _ (by show win0_4.index t 0 * 5000 + 1 * p.val = _; rw [e8]; omega)
  · exact fun k => blk1_apply V c t p k _ (by show win0_4.index t 0 * 5000 + 1 * p.val = _; rw [e8]; omega)
  · exact fun k => blk2_apply V c t k q

/-- An index of the result array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v11).slice (win0_4.rect t)).set ↔ _
  rw [View.set_slice_whole, Rect.mem_set_unit]
  exact Iff.rfl

/-- Every index of the result array is in the block of the point its row falls to: row r belongs to point r / 5000. -/
theorem cover (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  refine ⟨⟨(i 0).val / 5000, by omega⟩, flush0_4 _, ?_⟩
  rw [mem_blk]
  obtain ⟨-, -, -, -, -, -, -, -, e8, e9⟩ := idx_facts ⟨(i 0).val / 5000, by omega⟩
  intro a
  match a with
  | ⟨0, _⟩ =>
    show win0_4.index ⟨(i 0).val / 5000, _⟩ (0 : Fin 2) * 5000 ≤ (i 0).val ∧ (i 0).val < win0_4.index ⟨(i 0).val / 5000, _⟩ (0 : Fin 2) * 5000 + 5000
    rw [e8]; show (i 0).val / 5000 * 5000 ≤ (i 0).val ∧ (i 0).val < (i 0).val / 5000 * 5000 + 5000; omega
  | ⟨1, _⟩ =>
    show win0_4.index ⟨(i 0).val / 5000, _⟩ (1 : Fin 2) * 128 ≤ (i 1).val ∧ (i 1).val < win0_4.index ⟨(i 0).val / 5000, _⟩ (1 : Fin 2) * 128 + 128
    rw [e9]; omega

/-- The result array after the launch is the layer of the arrays the launch found. -/
theorem result (c : Dev nD) (b : FVec Ideal ⟨1, ![128]⟩ .f32)
    (hb : ∀ q : Fin 128, (V c main_v10 : S1x128.Idx → EReal) (ix2 (0 : Fin 1) q) = b (ix1 q)) :
    (dat0 V c).arrAt 4 cfg0.N = layerFn (V c main_arg0 : S100000x128.Idx → EReal) (V c main_v9) (V c main_arg4) b :=
  (dat0 V c).arrAt_eq_of_cover 4 _ (fun t _ => flushed_eq V c b hb t) cover

end Cert.KernelIdeal.Region0

end
-- ==== Proof.Region1.lean ====
/-
  Launch 1 of the layer kernel: the array it leaves is the layer of the arrays it finds.

  The grid has 20 points; point t holds rows 5000·t … 5000·t + 4999 of the node features and of the neighbourhood
  sums, the whole weight matrix and the bias row, and writes back rows 5000·t … 5000·t + 4999 of the result.  An entry
  of the layer depends on its own row of the two node arrays only, so what point t writes back is block t of ONE
  function of the arrays as the launch finds them — `Cert.Gin.layerFn` —, and the twenty blocks tile the result:
  the result array ends holding that function.  Stated at any contents `V` of the buffers at the launch's entry, with
  the bias row `[1, 128]` read as a bias vector `b`.
-/
import proofs.«149989_j39565238731025_1_alg».proof.Proof.FrameKI
import proofs.«149989_j39565238731025_1_alg».proof.Proof.BlockEntry
import Idealize.ShloMosaic.Lib.Pipeline.Value
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two node windows and the result window are at block row t,
    the weights and the bias at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The node-feature block at point t, row p: row 5000·t + p of the array. -/
theorem blk0_apply (c : Dev nD) (t : Fin cfg1.N) (p : Fin 5000) (k : Fin 128) (r : Fin 100000) (hr : r.val = t.val * 5000 + p.val) :
    (iblk1 V c 0 t : Vec Ideal S5000x128 .f32) (ix2 p k) = (V c main_v11 : S100000x128.Idx → EReal) (ix2 r k) := by
  obtain ⟨e0, e1, -⟩ := idx_facts t
  unfold iblk1
  rw [View.read_apply]
  show V c main_v11 _ = V c main_v11 _
  refine congrArg (V c main_v11) (funext fun a => Fin.ext ?_)
  match a with
  | ⟨0, _⟩ => show win1_0.index t 0 * 5000 + 1 * p.val = r.val; rw [e0, hr]; omega
  | ⟨1, _⟩ => show win1_0.index t 1 * 128 + 1 * k.val = k.val; rw [e1]; omega

/-- The neighbourhood-sum block at point t, row p: row 5000·t + p of the array. -/
theorem blk1_apply (c : Dev nD) (t : Fin cfg1.N) (p : Fin 5000) (k : Fin 128) (r : Fin 100000) (hr : r.val = t.val * 5000 + p.val) :
    (iblk1 V c 1 t : Vec Ideal S5000x128 .f32) (ix2 p k) = (V c main_v21 : S100000x128.Idx → EReal) (ix2 r k) := by
  obtain ⟨-, -, e0, e1, -⟩ := idx_facts t
  unfold iblk1
  rw [View.read_apply]
  show V c main_v21 _ = V c main_v21 _
  refine congrArg (V c main_v21) (funext fun a => Fin.ext ?_)
  match a with
  | ⟨0, _⟩ => show win1_1.index t 0 * 5000 + 1 * p.val = r.val; rw [e0, hr]; omega
  | ⟨1, _⟩ => show win1_1.index t 1 * 128 + 1 * k.val = k.val; rw [e1]; omega

/-- The weight block at every point is the whole weight matrix. -/
theorem blk2_apply (c : Dev nD) (t : Fin cfg1.N) (k q : Fin 128) :
    (iblk1 V c 2 t : Vec Ideal S128x128 .f32) (ix2 k q) = (V c main_arg6 : S128x128.Idx → EReal) (ix2 k q) := by
  obtain ⟨-, -, -, -, e0, e1, -⟩ := idx_facts t
  unfold iblk1
  rw [View.read_apply]
  show V c main_arg6 _ = V c main_arg6 _
  refine congrArg (V c main_arg6) (funext fun a => Fin.ext ?_)
  match a with
  | ⟨0, _⟩ => show win1_2.index t 0 * 128 + 1 * k.val = k.val; rw [e0]; omega
  | ⟨1, _⟩ => show win1_2.index t 1 * 128 + 1 * q.val = q.val; rw [e1]; omega

/-- The bias block at every point is the whole bias row. -/
theorem blk3_apply (c : Dev nD) (t : Fin cfg1.N) (q : Fin 128) :
    (iblk1 V c 3 t : Vec Ideal S1x128 .f32) (ix2 (0 : Fin 1) q) = (V c main_v22 : S1x128.Idx → EReal) (ix2 (0 : Fin 1) q) := by
  obtain ⟨-, -, -, -, -, -, e0, e1, -⟩ := idx_facts t
  unfold iblk1
  rw [View.read_apply]
  show V c main_v22 _ = V c main_v22 _
  refine congrArg (V c main_v22) (funext fun a => Fin.ext ?_)
  match a with
  | ⟨0, _⟩ => show win1_3.index t 0 * 1 + 1 * 0 = 0; rw [e0]
  | ⟨1, _⟩ => show win1_3.index t 1 * 128 + 1 * q.val = q.val; rw [e1]; omega

/-- What point t writes back is block t of the layer of the arrays the launch finds. -/
theorem flushed_eq (c : Dev nD) (b : FVec Ideal ⟨1, ![128]⟩ .f32)
    (hb : ∀ q : Fin 128, (V c main_v22 : S1x128.Idx → EReal) (ix2 (0 : Fin 1) q) = b (ix1 q)) (t : Fin cfg1.N) :
    (dat1 V c).flushed 4 t = ((cfg1.win 4).blk t).view.read (Elt Ideal)
      (layerFn (V c main_v11 : S100000x128.Idx → EReal) (V c main_v21) (V c main_arg6) b) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx_facts t
  have hN : cfg1.N = 20 := N_1
  refine funext fun (j : S5000x128.Idx) => ?_
  obtain ⟨p, q, rfl⟩ : ∃ (p : Fin 5000) (q : Fin 128), j = ix2 p q := ⟨j 0, j 1, eq_ix2 j⟩
  refine (Block.pay1_apply (iblk1 V c 0 t) (iblk1 V c 1 t) (iblk1 V c 2 t) (iblk1 V c 3 t) b
    (fun q' => (blk3_apply V c t q').trans (hb q')) p q).trans ?_
  rw [View.read_apply]
  refine entry_eq_layerFn (iblk1 V c 0 t) (iblk1 V c 1 t) (V c main_v11) (V c main_v21) (iblk1 V c 2 t) (V c main_arg6) b p q _ ?_ ?_ ?_ ?_
  · show win1_4.index t 1 * 128 + 1 * q.val = q.val
    rw [e9]; omega
  · exact fun k => blk0_apply V c t p k _ (by show win1_4.index t 0 * 5000 + 1 * p.val = _; rw [e8]; omega)
  · exact fun k => blk1_apply V c t p k _ (by show win1_4.index t 0 * 5000 + 1 * p.val = _; rw [e8]; omega)
  · exact fun k => blk2_apply V c t k q

/-- An index of the result array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v23).slice (win1_4.rect t)).set ↔ _
  rw [View.set_slice_whole, Rect.mem_set_unit]
  exact Iff.rfl

/-- Every index of the result array is in the block of the point its row falls to: row r belongs to point r / 5000. -/
theorem cover (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  refine ⟨⟨(i 0).val / 5000, by omega⟩, flush1_4 _, ?_⟩
  rw [mem_blk]
  obtain ⟨-, -, -, -, -, -, -, -, e8, e9⟩ := idx_facts ⟨(i 0).val / 5000, by omega⟩
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, _⟩ (1 : Fin 2) * 128 ≤ (i 1).val ∧ (i 1).val < win1_4.index ⟨(i 0).val / 5000, _⟩ (1 : Fin 2) * 128 + 128
    rw [e9]; omega

/-- The result array after the launch is the layer of the arrays the launch found. -/
theorem result (c : Dev nD) (b : FVec Ideal ⟨1, ![128]⟩ .f32)
    (hb : ∀ q : Fin 128, (V c main_v22 : S1x128.Idx → EReal) (ix2 (0 : Fin 1) q) = b (ix1 q)) :
    (dat1 V c).arrAt 4 cfg1.N = layerFn (V c main_v11 : S100000x128.Idx → EReal) (V c main_v21) (V c main_arg6) b :=
  (dat1 V c).arrAt_eq_of_cover 4 _ (fun t _ => flushed_eq V c b hb t) cover

end Cert.KernelIdeal.Region1

end
-- ==== Proof.Region2.lean ====
/-
  Launch 2 of the layer kernel: the array it leaves is the layer of the arrays it finds.

  The grid has 20 points; point t holds rows 5000·t … 5000·t + 4999 of the node features and of the neighbourhood
  sums, the whole weight matrix and the bias row, and writes back rows 5000·t … 5000·t + 4999 of the result.  An entry
  of the layer depends on its own row of the two node arrays only, so what point t writes back is block t of ONE
  function of the arrays as the launch finds them — `Cert.Gin.layerFn` —, and the twenty blocks tile the result:
  the result array ends holding that function.  Stated at any contents `V` of the buffers at the launch's entry, with
  the bias row `[1, 128]` read as a bias vector `b`.
-/
import proofs.«149989_j39565238731025_1_alg».proof.Proof.FrameKI
import proofs.«149989_j39565238731025_1_alg».proof.Proof.BlockEntry
import Idealize.ShloMosaic.Lib.Pipeline.Value
import Idealize.ShloMosaic.Lib.Tactic

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two node windows and the result window are at block row t,
    the weights and the bias at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The node-feature block at point t, row p: row 5000·t + p of the array. -/
theorem blk0_apply (c : Dev nD) (t : Fin cfg2.N) (p : Fin 5000) (k : Fin 128) (r : Fin 100000) (hr : r.val = t.val * 5000 + p.val) :
    (iblk2 V c 0 t : Vec Ideal S5000x128 .f32) (ix2 p k) = (V c main_v23 : S100000x128.Idx → EReal) (ix2 r k) := by
  obtain ⟨e0, e1, -⟩ := idx_facts t
  unfold iblk2
  rw [View.read_apply]
  show V c main_v23 _ = V c main_v23 _
  refine congrArg (V c main_v23) (funext fun a => Fin.ext ?_)
  match a with
  | ⟨0, _⟩ => show win2_0.index t 0 * 5000 + 1 * p.val = r.val; rw [e0, hr]; omega
  | ⟨1, _⟩ => show win2_0.index t 1 * 128 + 1 * k.val = k.val; rw [e1]; omega

/-- The neighbourhood-sum block at point t, row p: row 5000·t + p of the array. -/
theorem blk1_apply (c : Dev nD) (t : Fin cfg2.N) (p : Fin 5000) (k : Fin 128) (r : Fin 100000) (hr : r.val = t.val * 5000 + p.val) :
    (iblk2 V c 1 t : Vec Ideal S5000x128 .f32) (ix2 p k) = (V c main_v33 : S100000x128.Idx → EReal) (ix2 r k) := by
  obtain ⟨-, -, e0, e1, -⟩ := idx_facts t
  unfold iblk2
  rw [View.read_apply]
  show V c main_v33 _ = V c main_v33 _
  refine congrArg (V c main_v33) (funext fun a => Fin.ext ?_)
  match a with
  | ⟨0, _⟩ => show win2_1.index t 0 * 5000 + 1 * p.val = r.val; rw [e0, hr]; omega
  | ⟨1, _⟩ => show win2_1.index t 1 * 128 + 1 * k.val = k.val; rw [e1]; omega

/-- The weight block at every point is the whole weight matrix. -/
theorem blk2_apply (c : Dev nD) (t : Fin cfg2.N) (k q : Fin 128) :
    (iblk2 V c 2 t : Vec Ideal S128x128 .f32) (ix2 k q) = (V c main_arg8 : S128x128.Idx → EReal) (ix2 k q) := by
  obtain ⟨-, -, -, -, e0, e1, -⟩ := idx_facts t
  unfold iblk2
  rw [View.read_apply]
  show V c main_arg8 _ = V c main_arg8 _
  refine congrArg (V c main_arg8) (funext fun a => Fin.ext ?_)
  match a with
  | ⟨0, _⟩ => show win2_2.index t 0 * 128 + 1 * k.val = k.val; rw [e0]; omega
  | ⟨1, _⟩ => show win2_2.index t 1 * 128 + 1 * q.val = q.val; rw [e1]; omega

/-- The bias block at every point is the whole bias row. -/
theorem blk3_apply (c : Dev nD) (t : Fin cfg2.N) (q : Fin 128) :
    (iblk2 V c 3 t : Vec Ideal S1x128 .f32) (ix2 (0 : Fin 1) q) = (V c main_v34 : S1x128.Idx → EReal) (ix2 (0 : Fin 1) q) := by
  obtain ⟨-, -, -, -, -, -, e0, e1, -⟩ := idx_facts t
  unfold iblk2
  rw [View.read_apply]
  show V c main_v34 _ = V c main_v34 _
  refine congrArg (V c main_v34) (funext fun a => Fin.ext ?_)
  match a with
  | ⟨0, _⟩ => show win2_3.index t 0 * 1 + 1 * 0 = 0; rw [e0]
  | ⟨1, _⟩ => show win2_3.index t 1 * 128 + 1 * q.val = q.val; rw [e1]; omega

/-- What point t writes back is block t of the layer of the arrays the launch finds. -/
theorem flushed_eq (c : Dev nD) (b : FVec Ideal ⟨1, ![128]⟩ .f32)
    (hb : ∀ q : Fin 128, (V c main_v34 : S1x128.Idx → EReal) (ix2 (0 : Fin 1) q) = b (ix1 q)) (t : Fin cfg2.N) :
    (dat2 V c).flushed 4 t = ((cfg2.win 4).blk t).view.read (Elt Ideal)
      (layerFn (V c main_v23 : S100000x128.Idx → EReal) (V c main_v33) (V c main_arg8) b) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx_facts t
  have hN : cfg2.N = 20 := N_2
  refine funext fun (j : S5000x128.Idx) => ?_
  obtain ⟨p, q, rfl⟩ : ∃ (p : Fin 5000) (q : Fin 128), j = ix2 p q := ⟨j 0, j 1, eq_ix2 j⟩
  refine (Block.pay2_apply (iblk2 V c 0 t) (iblk2 V c 1 t) (iblk2 V c 2 t) (iblk2 V c 3 t) b
    (fun q' => (blk3_apply V c t q').trans (hb q')) p q).trans ?_
  rw [View.read_apply]
  refine entry_eq_layerFn (iblk2 V c 0 t) (iblk2 V c 1 t) (V c main_v23) (V c main_v33) (iblk2 V c 2 t) (V c main_arg8) b p q _ ?_ ?_ ?_ ?_
  · show win2_4.index t 1 * 128 + 1 * q.val = q.val
    rw [e9]; omega
  · exact fun k => blk0_apply V c t p k _ (by show win2_4.index t 0 * 5000 + 1 * p.val = _; rw [e8]; omega)
  · exact fun k => blk1_apply V c t p k _ (by show win2_4.index t 0 * 5000 + 1 * p.val = _; rw [e8]; omega)
  · exact fun k => blk2_apply V c t k q

/-- An index of the result array is in point t's block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v35).slice (win2_4.rect t)).set ↔ _
  rw [View.set_slice_whole, Rect.mem_set_unit]
  exact Iff.rfl

/-- Every index of the result array is in the block of the point its row falls to: row r belongs to point r / 5000. -/
theorem cover (i : S100000x128.Idx) : ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  refine ⟨⟨(i 0).val / 5000, by omega⟩, flush2_4 _, ?_⟩
  rw [mem_blk]
  obtain ⟨-, -, -, -, -, -, -, -, e8, e9⟩ := idx_facts ⟨(i 0).val / 5000, by omega⟩
  intro a
  match a with
  | ⟨0, _⟩ =>
    show win2_4.index ⟨(i 0).val / 5000, _⟩ (0 : Fin 2) * 5000 ≤ (i 0).val ∧ (i 0).val < win2_4.index ⟨(i 0).val / 5000, _⟩ (0 : Fin 2) * 5000 + 5000
    rw [e8]; show (i 0).val / 5000 * 5000 ≤ (i 0).val ∧ (i 0).val < (i 0).val / 5000 * 5000 + 5000; omega
  | ⟨1, _⟩ =>
    show win2_4.index ⟨(i 0).val / 5000, _⟩ (1 : Fin 2) * 128 ≤ (i 1).val ∧ (i 1).val < win2_4.index ⟨(i 0).val / 5000, _⟩ (1 : Fin 2) * 128 + 128
    rw [e9]; omega

/-- The result array after the launch is the layer of the arrays the launch found. -/
theorem result (c : Dev nD) (b : FVec Ideal ⟨1, ![128]⟩ .f32)
    (hb : ∀ q : Fin 128, (V c main_v34 : S1x128.Idx → EReal) (ix2 (0 : Fin 1) q) = b (ix1 q)) :
    (dat2 V c).arrAt 4 cfg2.N = layerFn (V c main_v23 : S100000x128.Idx → EReal) (V c main_v33) (V c main_arg8) b :=
  (dat2 V c).arrAt_eq_of_cover 4 _ (fun t _ => flushed_eq V c b hb t) cover

end Cert.KernelIdeal.Region2

end
-- ==== Proof.Spec.lean ====
/-
  The network as three functions of its arrays, spelt exactly as the reference program applies them.

  * `nbrSum x src dst`: for every node the sum of the rows of `x` at the sources of the edges that end there —
    a gather of the rows `x[src]` (negative ids wrapped by the node count) scattered by addition into zeros at `dst`.
  * `layer x src dst W b = relu ((x + nbrSum x src dst) · W + b)`.
  * `head h gid Wp bp`: the per-graph mean of the rows of `h` (row sums by graph id over the node counts, each
    count at least one), times `Wp`, plus `bp`.
  The whole result is `head` of three layers.  The gather, the scatter-additions and the division are never opened:
  both programs apply them to arrays that are shown equal, so they are carried as these names.
-/
import proofs.«149989_j39565238731025_1_alg».proof.Proof.Gen.ReferenceIdeal
import Idealize.ShloMosaic.PureOps.Ideal

noncomputable section

namespace Cert.ReferenceIdeal.Spec

open Idealize.ShloMosaic Cert.ReferenceIdeal Cert.ReferenceIdeal.Facts₀

variable {F : FTy → Type} [FloatOps F]

/-- The sum, at every node, of the feature rows of its in-neighbours. -/
def nbrSum (x : (⟨S100000x128, .f32⟩ : BufTy).Contents (Elt F)) (src dst : (⟨S800000, .i32⟩ : BufTy).Contents (Elt F)) :
    (⟨S100000x128, .f32⟩ : BufTy).Contents (Elt F) :=
  Host.scatterAdd scatter_S100000x128_S800000x1_S800000x128_1_0_0_1 (broadcastInDim S100000x128 ![] bcast_S_S100000x128 (constant S_ .f32 0x00000000#32)) (broadcastInDim S800000x1 ![0] bcast_S800000_S800000x1_0 dst) (Host.gather gather_S100000x128_S800000x1_S800000x128_1_0_n_n_0_1_1128 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 100000#32))) src)))

/-- One layer on the whole node array, given the neighbourhood sums `a`. -/
def layerOf (x a : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  maximumf (addf (Host.dotGeneral dot_S100000x128_S128x128_S100000x128_1_0_0_1_n_n none (addf x a) W) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- One layer: the neighbourhood sums taken of the layer's own input. -/
def layer (x : (⟨S100000x128, .f32⟩ : BufTy).Contents (Elt F)) (src dst : (⟨S800000, .i32⟩ : BufTy).Contents (Elt F))
    (W : (⟨S128x128, .f32⟩ : BufTy).Contents (Elt F)) (b : (⟨S128, .f32⟩ : BufTy).Contents (Elt F)) :
    (⟨S100000x128, .f32⟩ : BufTy).Contents (Elt F) :=
  layerOf x (nbrSum x src dst) W b

/-- The read-out: per-graph mean of the node rows, then the prediction head. -/
def head (h : (⟨S100000x128, .f32⟩ : BufTy).Contents (Elt F)) (gid : (⟨S100000, .i32⟩ : BufTy).Contents (Elt F))
    (Wp : (⟨S128x8, .f32⟩ : BufTy).Contents (Elt F)) (bp : (⟨S8, .f32⟩ : BufTy).Contents (Elt F)) :
    (⟨S64x8, .f32⟩ : BufTy).Contents (Elt F) :=
  addf (Host.dotGeneral dot_S64x128_S128x8_S64x8_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 gid) h) (broadcastInDim S64x128 ![0, 1] bcast_S64x1_S64x128_0_1 (maximumf (Host.scatterAdd scatter_S64x1_S100000x1_S100000x1_1_0_0_1 (broadcastInDim S64x1 ![] bcast_S_S64x1 (constant S_ .f32 0x00000000#32)) (broadcastInDim S100000x1 ![0] bcast_S100000_S100000x1_0 gid) (broadcastInDim S100000x1 ![] bcast_S_S100000x1 (constant S_ .f32 0x3F800000#32))) (broadcastInDim S64x1 ![] bcast_S_S64x1 (constant S_ .f32 0x3F800000#32))))) Wp) (broadcastInDim S64x8 ![0, 1] bcast_S1x8_S64x8_0_1 (broadcastInDim S1x8 ![1] bcast_S8_S1x8_1 bp))

/-- The whole network. -/
def net (x : (⟨S100000x128, .f32⟩ : BufTy).Contents (Elt F)) (src dst : (⟨S800000, .i32⟩ : BufTy).Contents (Elt F))
    (gid : (⟨S100000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F))
    (Wp : (⟨S128x8, .f32⟩ : BufTy).Contents (Elt F)) (bp : (⟨S8, .f32⟩ : BufTy).Contents (Elt F)) :
    (⟨S64x8, .f32⟩ : BufTy).Contents (Elt F) :=
  head (layer (layer (layer x src dst W1 b1) src dst W2 b2) src dst W3 b3) gid Wp bp

end Cert.ReferenceIdeal.Spec

end
-- ==== Proof.RefLayer.lean ====
/-
  The reference's layer, read at an entry.

  On the whole node array the reference computes `max ((x + a) · W + b) 0` with one contraction over the feature
  axis, the bias broadcast along the rows in two steps ([128] to [1, 128] to [100000, 128]) and the zero broadcast
  from a scalar.  At (p, q) this is `Cert.Gin.entry x a W b p q`: the contraction is the plain sum over its one
  axis, re-indexed to `Fin 128`.
-/
import proofs.«149989_j39565238731025_1_alg».proof.Proof.Spec
import proofs.«149989_j39565238731025_1_alg».proof.Proof.LayerEntry
import Idealize.ShloMosaic.Lib.ValueIdx
import Idealize.ShloMosaic.Lib.Pipeline.Value
import Idealize.ShloMosaic.PureOps.Ideal.Laws

noncomputable section

namespace Cert.ReferenceIdeal.Spec

open Idealize.ShloMosaic Idealize.ShloMosaic.ValueIdx Cert.ReferenceIdeal Cert.Gin

/-- The whole-array product's dimension numbers. -/
abbrev DR : DotDims S100000x128 S128x128 S100000x128 := dot_S100000x128_S128x128_S100000x128_1_0_0_1_n_n

theorem lhs_0 (i : S100000x128.Idx) (r : DR.contr.Idx) : (DR.lhsIdx i r 0).val = (i 0).val := by
  unfold DotDims.lhsIdx
  rw [dif_neg (show ¬(0 : Fin S100000x128.rank) ∈ DR.lhsBatch by decide), dif_pos (show (0 : Fin S100000x128.rank) ∈ DR.lhsNonContracting by decide)]
  rfl
theorem lhs_1 (i : S100000x128.Idx) (r : DR.contr.Idx) : (DR.lhsIdx i r 1).val = (r ⟨0, by decide⟩).val :=
  DR.lhsIdx_val_of_single rfl i r
theorem rhs_0 (i : S100000x128.Idx) (r : DR.contr.Idx) : (DR.rhsIdx i r 0).val = (r ⟨0, by decide⟩).val :=
  DR.rhsIdx_val_of_single rfl i r
theorem rhs_1 (i : S100000x128.Idx) (r : DR.contr.Idx) : (DR.rhsIdx i r 1).val = (i 1).val := by
  unfold DotDims.rhsIdx
  rw [dif_neg (show ¬(1 : Fin S128x128.rank) ∈ DR.rhsBatch by decide), dif_pos (show (1 : Fin S128x128.rank) ∈ DR.rhsNonContracting by decide)]
  rfl

theorem lhs_idx (p : Fin 100000) (q k : Fin 128) :
    DR.lhsIdx (ix2 p q) ((contrEquiv1 DR 128 rfl rfl).symm k) = ix2 p k :=
  funext fun a => Fin.ext (by
    match a with
    | ⟨0, _⟩ => exact lhs_0 _ _
    | ⟨1, _⟩ => exact (lhs_1 _ _).trans (contrEquiv1_symm_val DR 128 rfl rfl k))

theorem rhs_idx (p : Fin 100000) (q k : Fin 128) :
    DR.rhsIdx (ix2 p q) ((contrEquiv1 DR 128 rfl rfl).symm k) = ix2 k q :=
  funext fun a => Fin.ext (by
    match a with
    | ⟨0, _⟩ => exact (rhs_0 _ _).trans (contrEquiv1_symm_val DR 128 rfl rfl k)
    | ⟨1, _⟩ => exact rhs_1 _ _)

/-- The bias, broadcast in two steps, read at (p, q) is the bias at q. -/
theorem bias_apply (b : FVec Ideal S128 .f32) (p : Fin 100000) (q : Fin 128) :
    broadcastInDim S100000x128 ![0, 1] Facts₀.bcast_S1x128_S100000x128_0_1 (broadcastInDim S1x128 ![1] Facts₀.bcast_S128_S1x128_1 b) (ix2 p q)
      = b (ix1 q) := by
  refine (broadcastInDim_apply _ Facts₀.bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ Facts₀.bcast_S128_S1x128_1 b (ix2 (0 : Fin 1) q) (ix1 q) (fun a => match a with
    | ⟨0, _⟩ => by show q.val = if (128 : Nat) = 1 then 0 else q.val; rw [if_neg (by decide)])

/-- The reference's layer is the entry formula at every index. -/
theorem layerOf_eq (x a : FVec Ideal S100000x128 .f32) (W : FVec Ideal S128x128 .f32) (b : FVec Ideal S128 .f32) :
    layerOf (F := Ideal) x a W b = layerFn x a W b := by
  funext i
  obtain ⟨p, q, rfl⟩ : ∃ (p : Fin 100000) (q : Fin 128), i = ix2 p q := ⟨i 0, i 1, eq_ix2 i⟩
  unfold layerOf layerFn
  rw [maximumf_apply, addf_apply, bias_apply b p q]
  simp only [Host.dotGeneral]
  rw [Ideal.dotGeneral_apply, ← Equiv.sum_comp (contrEquiv1 DR 128 rfl rfl).symm]
  unfold entry
  refine congrArg₂ max (congrArg (· + b (ix1 q)) (Finset.sum_congr rfl fun k _ => ?_)) ?_
  · rw [lhs_idx, rhs_idx]
    rfl
  · exact broadcastInDim_apply _ Facts₀.bcast_S_S100000x128 _ (ix2 p q) ix0 (fun a => a.elim0)

end Cert.ReferenceIdeal.Spec

end
-- ==== Proof.Net.lean ====
/-
  The kernel program's result is the network of its arguments.

  The fold through @main is read back boundary by boundary.  A stretch of host operations leaves each buffer it
  writes at its operation's function of the buffers before it and every other buffer as it was; a launch leaves its
  result array at the layer of the arrays it found (`Region0`/`1`/`2`) and every other buffer as it was.  So after
  launch k the k-th hidden array is `Spec.layer` of the one before it: the neighbourhood sums the launch finds are the
  host's gather and scatter-addition of the previous hidden array, the bias row it finds is the bias vector reshaped, and
  the layer the kernel computes block by block is the layer the reference computes in one contraction
  (`Spec.layerOf_eq`).  After the last stretch the result buffer is the read-out `Spec.head` of the third hidden array.
-/
import proofs.«149989_j39565238731025_1_alg».proof.Proof.NamedRun
import proofs.«149989_j39565238731025_1_alg».proof.Proof.Region0
import proofs.«149989_j39565238731025_1_alg».proof.Proof.Region1
import proofs.«149989_j39565238731025_1_alg».proof.Proof.Region2
import proofs.«149989_j39565238731025_1_alg».proof.Proof.RefLayer
import Idealize.ShloMosaic.Lib.StableHlo.Run
import Idealize.ShloMosaic.Lib.ValueLayout

noncomputable section

namespace Cert.KernelIdeal.Net

open Idealize.ShloMosaic Idealize.ShloMosaic.TcCoe Idealize.SL.Sem Idealize.ShloMosaic.ValueIdx Idealize.ShloMosaic.StableHlo
open Cert.KernelIdeal Cert.KernelIdeal.Gen Cert.KernelIdeal.GenP Cert.Gin
open Cert.ReferenceIdeal (Spec.nbrSum Spec.layer Spec.layerOf Spec.head Spec.net Spec.layerOf_eq)

variable (m : (ℓ : Loc nD τ sig) → Buf (Elt Ideal) ℓ) (ρ : Dev nD → PrngReg)

/-! ## The argument arrays as launched -/

abbrev feat (c : Dev nD) : (⟨S100000x128, .f32⟩ : BufTy).Contents (Elt Ideal) := m ((c.tc : Thread nD τ).loc main_arg0)
abbrev src (c : Dev nD) : (⟨S800000, .i32⟩ : BufTy).Contents (Elt Ideal) := m ((c.tc : Thread nD τ).loc main_arg1)
abbrev dst (c : Dev nD) : (⟨S800000, .i32⟩ : BufTy).Contents (Elt Ideal) := m ((c.tc : Thread nD τ).loc main_arg2)
abbrev gid (c : Dev nD) : (⟨S100000, .i32⟩ : BufTy).Contents (Elt Ideal) := m ((c.tc : Thread nD τ).loc main_arg3)
abbrev w1 (c : Dev nD) : (⟨S128x128, .f32⟩ : BufTy).Contents (Elt Ideal) := m ((c.tc : Thread nD τ).loc main_arg4)
abbrev b1 (c : Dev nD) : (⟨S128, .f32⟩ : BufTy).Contents (Elt Ideal) := m ((c.tc : Thread nD τ).loc main_arg5)
abbrev w2 (c : Dev nD) : (⟨S128x128, .f32⟩ : BufTy).Contents (Elt Ideal) := m ((c.tc : Thread nD τ).loc main_arg6)
abbrev b2 (c : Dev nD) : (⟨S128, .f32⟩ : BufTy).Contents (Elt Ideal) := m ((c.tc : Thread nD τ).loc main_arg7)
abbrev w3 (c : Dev nD) : (⟨S128x128, .f32⟩ : BufTy).Contents (Elt Ideal) := m ((c.tc : Thread nD τ).loc main_arg8)
abbrev b3 (c : Dev nD) : (⟨S128, .f32⟩ : BufTy).Contents (Elt Ideal) := m ((c.tc : Thread nD τ).loc main_arg9)
abbrev wp (c : Dev nD) : (⟨S128x8, .f32⟩ : BufTy).Contents (Elt Ideal) := m ((c.tc : Thread nD τ).loc main_arg10)
abbrev bp (c : Dev nD) : (⟨S8, .f32⟩ : BufTy).Contents (Elt Ideal) := m ((c.tc : Thread nD τ).loc main_arg11)

/-- The three hidden arrays. -/
abbrev hid1 (c : Dev nD) : (⟨S100000x128, .f32⟩ : BufTy).Contents (Elt Ideal) :=
  Spec.layer (F := Ideal) (feat m c) (src m c) (dst m c) (w1 m c) (b1 m c)
abbrev hid2 (c : Dev nD) : (⟨S100000x128, .f32⟩ : BufTy).Contents (Elt Ideal) :=
  Spec.layer (F := Ideal) (hid1 m c) (src m c) (dst m c) (w2 m c) (b2 m c)
abbrev hid3 (c : Dev nD) : (⟨S100000x128, .f32⟩ : BufTy).Contents (Elt Ideal) :=
  Spec.layer (F := Ideal) (hid2 m c) (src m c) (dst m c) (w3 m c) (b3 m c)

/-! ## The arguments the later segments read keep their launch contents through the earlier ones -/

theorem W2_arg1 (c : Dev nD) : W2 m ρ c (Proc.devRef .tc main_arg1) = src m c :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = dst m c :=
  (W2_of_ne m ρ c main_arg2 (by decide)).trans (by
    show StableHlo.after hostOps0 (W0 m ρ c) (Proc.devRef .tc main_arg2) = _
    after_results <;> rfl)
theorem W2_arg3 (c : Dev nD) : W2 m ρ c (Proc.devRef .tc main_arg3) = gid m c :=
  (W2_of_ne m ρ c main_arg3 (by decide)).trans (by
    show StableHlo.after hostOps0 (W0 m ρ c) (Proc.devRef .tc main_arg3) = _
    after_results <;> rfl)
theorem W2_arg6 (c : Dev nD) : W2 m ρ c (Proc.devRef .tc main_arg6) = w2 m c :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = b2 m c :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = w3 m c :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = b3 m c :=
  (W2_of_ne m ρ c main_arg9 (by decide)).trans (by
    show StableHlo.after hostOps0 (W0 m ρ c) (Proc.devRef .tc main_arg9) = _
    after_results <;> rfl)
theorem W2_arg10 (c : Dev nD) : W2 m ρ c (Proc.devRef .tc main_arg10) = wp m c :=
  (W2_of_ne m ρ c main_arg10 (by decide)).trans (by
    show StableHlo.after hostOps0 (W0 m ρ c) (Proc.devRef .tc main_arg10) = _
    after_results <;> rfl)
theorem W2_arg11 (c : Dev nD) : W2 m ρ c (Proc.devRef .tc main_arg11) = bp m c :=
  (W2_of_ne m ρ c main_arg11 (by decide)).trans (by
    show StableHlo.after hostOps0 (W0 m ρ c) (Proc.devRef .tc main_arg11) = _
    after_results <;> rfl)

theorem W4_arg1 (c : Dev nD) : W4 m ρ c (Proc.devRef .tc main_arg1) = src m c :=
  (W4_of_ne m ρ c main_arg1 (by decide)).trans (by
    show StableHlo.after hostOps1 (W2 m ρ c) (Proc.devRef .tc main_arg1) = _
    after_results <;> exact W2_arg1 m ρ c)
theorem W4_arg2 (c : Dev nD) : W4 m ρ c (Proc.devRef .tc main_arg2) = dst m c :=
  (W4_of_ne m ρ c main_arg2 (by decide)).trans (by
    show StableHlo.after hostOps1 (W2 m ρ c) (Proc.devRef .tc main_arg2) = _
    after_results <;> exact W2_arg2 m ρ c)
theorem W4_arg3 (c : Dev nD) : W4 m ρ c (Proc.devRef .tc main_arg3) = gid m c :=
  (W4_of_ne m ρ c main_arg3 (by decide)).trans (by
    show StableHlo.after hostOps1 (W2 m ρ c) (Proc.devRef .tc main_arg3) = _
    after_results <;> exact W2_arg3 m ρ c)
theorem W4_arg8 (c : Dev nD) : W4 m ρ c (Proc.devRef .tc main_arg8) = w3 m c :=
  (W4_of_ne m ρ c main_arg8 (by decide)).trans (by
    show StableHlo.after hostOps1 (W2 m ρ c) (Proc.devRef .tc main_arg8) = _
    after_results <;> exact W2_arg8 m ρ c)
theorem W4_arg9 (c : Dev nD) : W4 m ρ c (Proc.devRef .tc main_arg9) = b3 m c :=
  (W4_of_ne m ρ c main_arg9 (by decide)).trans (by
    show StableHlo.after hostOps1 (W2 m ρ c) (Proc.devRef .tc main_arg9) = _
    after_results <;> exact W2_arg9 m ρ c)
theorem W4_arg10 (c : Dev nD) : W4 m ρ c (Proc.devRef .tc main_arg10) = wp m c :=
  (W4_of_ne m ρ c main_arg10 (by decide)).trans (by
    show StableHlo.after hostOps1 (W2 m ρ c) (Proc.devRef .tc main_arg10) = _
    after_results <;> exact W2_arg10 m ρ c)
theorem W4_arg11 (c : Dev nD) : W4 m ρ c (Proc.devRef .tc main_arg11) = bp m c :=
  (W4_of_ne m ρ c main_arg11 (by decide)).trans (by
    show StableHlo.after hostOps1 (W2 m ρ c) (Proc.devRef .tc main_arg11) = _
    after_results <;> exact W2_arg11 m ρ c)

theorem W6_arg3 (c : Dev nD) : W6 m ρ c (Proc.devRef .tc main_arg3) = gid m c :=
  (W6_of_ne m ρ c main_arg3 (by decide)).trans (by
    show StableHlo.after hostOps2 (W4 m ρ c) (Proc.devRef .tc main_arg3) = _
    after_results <;> exact W4_arg3 m ρ c)
theorem W6_arg10 (c : Dev nD) : W6 m ρ c (Proc.devRef .tc main_arg10) = wp m c :=
  (W6_of_ne m ρ c main_arg10 (by decide)).trans (by
    show StableHlo.after hostOps2 (W4 m ρ c) (Proc.devRef .tc main_arg10) = _
    after_results <;> exact W4_arg10 m ρ c)
theorem W6_arg11 (c : Dev nD) : W6 m ρ c (Proc.devRef .tc main_arg11) = bp m c :=
  (W6_of_ne m ρ c main_arg11 (by decide)).trans (by
    show StableHlo.after hostOps2 (W4 m ρ c) (Proc.devRef .tc main_arg11) = _
    after_results <;> exact W4_arg11 m ρ c)

/-! ## Launch 0: the first hidden array -/

/-- The bias row launch 0 finds is the first bias vector reshaped to one row. -/
theorem bias1 (c : Dev nD) (q : Fin 128) :
    (V1 m ρ c main_v10 : S1x128.Idx → EReal) (ix2 (0 : Fin 1) q) = b1 m c (ix1 q) := by
  show StableHlo.after hostOps0 (W0 m ρ c) (Proc.devRef .tc main_v10) (ix2 (0 : Fin 1) q) = _
  after_results
  exact shapeCast_a_1a_apply _ _ 0 q

/-- The node features launch 0 finds are the argument's. -/
theorem in1_x (c : Dev nD) : V1 m ρ c main_arg0 = feat m c := by
  show StableHlo.after hostOps0 (W0 m ρ c) (Proc.devRef .tc main_arg0) = _
  after_results <;> rfl
/-- The neighbourhood sums launch 0 finds are the host's, of the node features. -/
theorem in1_a (c : Dev nD) : V1 m ρ c main_v9 = Spec.nbrSum (F := Ideal) (feat m c) (src m c) (dst m c) := by
  show StableHlo.after hostOps0 (W0 m ρ c) (Proc.devRef .tc main_v9) = _
  after_results <;> rfl
/-- The weights launch 0 finds are the first layer's. -/
theorem in1_w (c : Dev nD) : V1 m ρ c main_arg4 = w1 m c := by
  show StableHlo.after hostOps0 (W0 m ρ c) (Proc.devRef .tc main_arg4) = _
  after_results <;> rfl

theorem out1 (c : Dev nD) : W2 m ρ c (Proc.devRef .tc main_v11) = hid1 m c := by
  refine (W2_arr m ρ c 4).trans ((Region0.result (V1 m ρ) c (b1 m c) (bias1 m ρ c)).trans ?_)
  rw [in1_x m ρ c, in1_a m ρ c, in1_w m ρ c]
  exact (Spec.layerOf_eq _ _ _ _).symm

/-! ## Launch 1: the second hidden array -/

theorem bias2 (c : Dev nD) (q : Fin 128) :
    (V3 m ρ c main_v22 : S1x128.Idx → EReal) (ix2 (0 : Fin 1) q) = b2 m c (ix1 q) := by
  show StableHlo.after hostOps1 (W2 m ρ c) (Proc.devRef .tc main_v22) (ix2 (0 : Fin 1) q) = _
  after_results
  rw [W2_arg7 m ρ c]
  exact shapeCast_a_1a_apply _ _ 0 q

/-- The node array launch 1 finds is the first hidden array. -/
theorem in2_x (c : Dev nD) : V3 m ρ c main_v11 = hid1 m c := by
  show StableHlo.after hostOps1 (W2 m ρ c) (Proc.devRef .tc main_v11) = _
  after_results <;> exact out1 m ρ c
/-- The neighbourhood sums launch 1 finds are the host's, of the first hidden array. -/
theorem in2_a (c : Dev nD) : V3 m ρ c main_v21 = Spec.nbrSum (F := Ideal) (hid1 m c) (src m c) (dst m c) := by
  show StableHlo.after hostOps1 (W2 m ρ c) (Proc.devRef .tc main_v21) = _
  after_results
  rw [out1 m ρ c, W2_arg1 m ρ c, W2_arg2 m ρ c]
  rfl
/-- The weights launch 1 finds are the second layer's. -/
theorem in2_w (c : Dev nD) : V3 m ρ c main_arg6 = w2 m c := by
  show StableHlo.after hostOps1 (W2 m ρ c) (Proc.devRef .tc main_arg6) = _
  after_results <;> exact W2_arg6 m ρ c

theorem out2 (c : Dev nD) : W4 m ρ c (Proc.devRef .tc main_v23) = hid2 m c := by
  refine (W4_arr m ρ c 4).trans ((Region1.result (V3 m ρ) c (b2 m c) (bias2 m ρ c)).trans ?_)
  rw [in2_x m ρ c, in2_a m ρ c, in2_w m ρ c]
  exact (Spec.layerOf_eq _ _ _ _).symm

/-! ## Launch 2: the third hidden array -/

theorem bias3 (c : Dev nD) (q : Fin 128) :
    (V5 m ρ c main_v34 : S1x128.Idx → EReal) (ix2 (0 : Fin 1) q) = b3 m c (ix1 q) := by
  show StableHlo.after hostOps2 (W4 m ρ c) (Proc.devRef .tc main_v34) (ix2 (0 : Fin 1) q) = _
  after_results
  rw [W4_arg9 m ρ c]
  exact shapeCast_a_1a_apply _ _ 0 q

/-- The node array launch 2 finds is the second hidden array. -/
theorem in3_x (c : Dev nD) : V5 m ρ c main_v23 = hid2 m c := by
  show StableHlo.after hostOps2 (W4 m ρ c) (Proc.devRef .tc main_v23) = _
  after_results <;> exact out2 m ρ c
/-- The neighbourhood sums launch 2 finds are the host's, of the second hidden array. -/
theorem in3_a (c : Dev nD) : V5 m ρ c main_v33 = Spec.nbrSum (F := Ideal) (hid2 m c) (src m c) (dst m c) := by
  show StableHlo.after hostOps2 (W4 m ρ c) (Proc.devRef .tc main_v33) = _
  after_results
  rw [out2 m ρ c, W4_arg1 m ρ c, W4_arg2 m ρ c]
  rfl
/-- The weights launch 2 finds are the third layer's. -/
theorem in3_w (c : Dev nD) : V5 m ρ c main_arg8 = w3 m c := by
  show StableHlo.after hostOps2 (W4 m ρ c) (Proc.devRef .tc main_arg8) = _
  after_results <;> exact W4_arg8 m ρ c

theorem out3 (c : Dev nD) : W6 m ρ c (Proc.devRef .tc main_v35) = hid3 m c := by
  refine (W6_arr m ρ c 4).trans ((Region2.result (V5 m ρ) c (b3 m c) (bias3 m ρ c)).trans ?_)
  rw [in3_x m ρ c, in3_a m ρ c, in3_w m ρ c]
  exact (Spec.layerOf_eq _ _ _ _).symm

/-! ## The read-out and the run -/

/-- The result buffer at the last boundary is the network of the launch contents of the arguments. -/
theorem result (c : Dev nD) : W7 m ρ c (Proc.devRef .tc main_v50)
    = Spec.net (F := Ideal) (feat m c) (src m c) (dst m c) (gid m c) (w1 m c) (b1 m c) (w2 m c) (b2 m c) (w3 m c) (b3 m c) (wp m c) (bp m c) := by
  show StableHlo.after hostOps3 (W6 m ρ c) (Proc.devRef .tc main_v50) = _
  after_results_simp
  rw [out3 m ρ c, W6_arg3 m ρ c, W6_arg10 m ρ c, W6_arg11 m ρ c]
  rfl

/-- The kernel program's run, read: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v50)
        = Spec.net (F := Ideal) (feat m c) (src m c) (dst m c) (gid m c) (w1 m c) (b1 m c) (w2 m c) (b2 m c) (w3 m c) (b3 m c) (wp m c) (bp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (Named.run_named m ρ)

end Cert.KernelIdeal.Net

end
-- ==== Proof.RefNet.lean ====
/-
  The reference's result is the network of its arguments.

  The reference's run ends with its result buffer at the composed term of its operations; grouped by layer that
  term is `Spec.net` of the argument arrays: the same operations, read in the same order.
-/
import proofs.«149989_j39565238731025_1_alg».proof.Proof.Gen.ReferenceIdeal.Run
import proofs.«149989_j39565238731025_1_alg».proof.Proof.Spec

noncomputable section

namespace Cert.ReferenceIdeal.Spec

open Idealize.ShloMosaic Idealize.ShloMosaic.TcCoe Idealize.SL.Sem Cert.ReferenceIdeal

variable {F : FTy → Type} [FloatOps F]

set_option maxRecDepth 8192 in
/-- The result term of the reference's run, grouped by layer. -/
theorem res_eq_net (m : (ℓ : Loc nD τ sig) → Buf (Elt F) ℓ) (c : Dev nD) :
    Cert.ReferenceIdeal.Value.res_main_v62 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v62 net head layer layerOf nbrSum
  rfl

end Cert.ReferenceIdeal.Spec

end
-- ==== Proof.lean ====
/-
  A three-layer graph-isomorphism network with a mean read-out, tiled against whole-array.

  Both programs compute, from node features `x : [100000, 128]`, edge lists `src`, `dst`, graph ids and the weights,
      h₁ = relu ((x  + A x ) · W₁ + b₁),   h₂ = relu ((h₁ + A h₁) · W₂ + b₂),   h₃ = relu ((h₂ + A h₂) · W₃ + b₃),
      result = mean-per-graph (h₃) · Wp + bp,
  where `A h` sums, at every node, the rows of `h` at the sources of the edges ending there.  The sums `A h`, the
  per-graph mean and the head are the same host operations in both programs.  They differ in the dense part of a
  layer only: the reference contracts the whole `[100000, 128]` array against `W` at once, the kernel program runs a
  launch of twenty grid points, each taking 5000 rows of `h` and of `A h`, narrowing `h + A h` and `W` to bfloat16
  and accumulating their product into zeros.  Over the extended reals the narrowing is the identity and a product
  into zeros is the plain sum over the feature axis, and a row of `relu ((h + A h) · W + b)` depends on the same row
  of `h` and `A h` only — so the twenty written blocks are the blocks of the one whole-array layer and tile it.
  No law that needs finite inputs is used: each entry is the same sum of the same products on both sides.

  The modules: `LayerEntry` (one entry of a layer), `BlockEntry` (what a grid point stores is that entry),
  `Region0/1/2` (a launch leaves the whole-array layer), `Spec` and `RefLayer` (the reference's layer is that entry
  too), `NamedRun` (the kernel program's run with its result buffer named), `Net` and `RefNet` (either program's
  result is `Spec.net` of the arguments).  The two programs' frames are the generated ones.
-/
import proofs.«149989_j39565238731025_1_alg».proof.Defs
import proofs.«149989_j39565238731025_1_alg».proof.Proof.Gen.Kernel
import proofs.«149989_j39565238731025_1_alg».proof.Proof.Gen.KernelIdeal
import proofs.«149989_j39565238731025_1_alg».proof.Proof.Gen.ReferenceIdeal
import proofs.«149989_j39565238731025_1_alg».proof.Proof.Gen.Pre_finite_inputs
import proofs.«149989_j39565238731025_1_alg».proof.Proof.FrameK
import proofs.«149989_j39565238731025_1_alg».proof.Proof.FrameKI
import proofs.«149989_j39565238731025_1_alg».proof.Proof.Net
import proofs.«149989_j39565238731025_1_alg».proof.Proof.RefNet
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.GenP.frame m ρ

/-- So does its reading over the extended reals. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result buffer at the network of those
    arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Spec.res_eq_net, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
